-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.DenseSpec.lean ====
/-
  The function both programs compute, and the one regrouping law between their two arrangements.

  For x : [8192, 4096], w : [4096, 4096], b : [4096] over the extended reals, the bipolar dense layer is
      dense x w b (r, c) = max (Σ_{k < 4096} x (r, k) · sign (w (k, c)) + b c) 0 .
  The reference contracts all 4096 indices at once; the kernel contracts them in 8 consecutive chunks of 512 and
  adds the chunks' sums one after the other. Addition of extended reals is commutative and associative (also at the
  infinities), so a sum over 4096 = 8 · 512 indices is the sum over the 8 chunks of the sums inside each chunk:
  `sum_chunks`. No finiteness of the data is needed.
-/
import Idealize.ShloMosaic.PureOps.Ideal.Laws
import Idealize.ShloMosaic.Lib.ValueIdx

noncomputable section

namespace BipolarDense

open Idealize.ShloMosaic Idealize.ShloMosaic.ValueIdx

/-- `relu (x · sign w + b)` at row `i 0`, column `i 1`. -/
def dense (x : (⟨2, ![8192, 4096]⟩ : Shape).Idx → EReal) (w : (⟨2, ![4096, 4096]⟩ : Shape).Idx → EReal)
    (bv : (⟨1, ![4096]⟩ : Shape).Idx → EReal) : (⟨2, ![8192, 4096]⟩ : Shape).Idx → EReal := fun i =>
  max ((∑ k : Fin 4096, x (ix2 (⟨(i 0).val, (i 0).isLt⟩ : Fin 8192) k) * Ideal.sign (w (ix2 k (⟨(i 1).val, (i 1).isLt⟩ : Fin 4096))))
    + bv (ix1 (⟨(i 1).val, (i 1).isLt⟩ : Fin 4096))) 0

/-- Index `512 · s + l` of the contraction axis: place `l` of chunk `s`. -/
abbrev chunkIdx (s : Fin 8) (l : Fin 512) : Fin 4096 :=
  ⟨512 * s.val + l.val, by have := s.isLt; have := l.isLt; omega⟩

/-- A sum over the 4096 contraction indices is the sum over the 8 chunks of the sums over each chunk's 512 places. -/
theorem sum_chunks {β : Type*} [AddCommMonoid β] (g : Fin 4096 → β) :
    ∑ k : Fin 4096, g k = ∑ s : Fin 8, ∑ l : Fin 512, g (chunkIdx s l) := by
  rw [← Fintype.sum_prod_type']
  refine (Fintype.sum_equiv (finProdFinEquiv (m := 8) (n := 512)) _ _ (fun p => congrArg g (Fin.ext ?_))).symm
  show 512 * p.1.val + p.2.val = p.2.val + 512 * p.1.val
  omega

end BipolarDense

end
-- ==== Proof.Payload.lean ====
/-
  The three values the kernel body stores into its resident [2048, 1024] output block, read at one place (p, q) of
  the block, over the extended reals.

  * The reset stores the zero block: 0 at every place.
  * Every grid point stores  acc + xb · sign wb , where xb : [2048, 512] and wb : [512, 1024] are the point's blocks
    of x and w and acc is what the block held before: at (p, q) this is
        acc (p, q) + Σ_{l < 512} xb (p, l) · sign (wb (l, q)) .
    The narrowing of both operands to bf16 is the identity on the extended reals; the matrix unit's product into a
    zero accumulator is the plain sum over the contracted axis; and the kernel's sign — 1 carrying the sign bit where
    |w| > 0, else w itself — is the order-theoretic sign at every extended real, the infinities and zero included.
  * The last point of a run stores  max (v + bias row, 0) : at (p, q) this is  max (v (p, q) + bb (0, q)) 0 .
-/
import proofs.«157911_j63900523430275_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The matrix product's operand indices: row p of the left block, column q of the right one -/

theorem lhs_row (i : S2048x1024.Idx) (k : dot_S2048x512_S512x1024_S2048x1024_1_0_0_1_n_n.contr.Idx) :
    (dot_S2048x512_S512x1024_S2048x1024_1_0_0_1_n_n.lhsIdx i k 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl

theorem lhs_col (i : S2048x1024.Idx) (k : dot_S2048x512_S512x1024_S2048x1024_1_0_0_1_n_n.contr.Idx) :
    (dot_S2048x512_S512x1024_S2048x1024_1_0_0_1_n_n.lhsIdx i k 1).val = (k ⟨0, by decide⟩).val :=
  dot_S2048x512_S512x1024_S2048x1024_1_0_0_1_n_n.lhsIdx_val_of_single rfl i k

theorem rhs_row (i : S2048x1024.Idx) (k : dot_S2048x512_S512x1024_S2048x1024_1_0_0_1_n_n.contr.Idx) :
    (dot_S2048x512_S512x1024_S2048x1024_1_0_0_1_n_n.rhsIdx i k 0).val = (k ⟨0, by decide⟩).val :=
  dot_S2048x512_S512x1024_S2048x1024_1_0_0_1_n_n.rhsIdx_val_of_single rfl i k

theorem rhs_col (i : S2048x1024.Idx) (k : dot_S2048x512_S512x1024_S2048x1024_1_0_0_1_n_n.contr.Idx) :
    (dot_S2048x512_S512x1024_S2048x1024_1_0_0_1_n_n.rhsIdx i k 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The matrix unit's product into a zero accumulator, at (p, q): the sum over the 512 contracted places. -/
theorem product_apply (a : FVec Ideal S2048x512 .bf16) (b : FVec Ideal S512x1024 .bf16) (p : Fin 2048) (q : Fin 1024) :
    matmul dot_S2048x512_S512x1024_S2048x1024_1_0_0_1_n_n none a b (constant S2048x1024 .f32 0x00000000#32) (ix2 p q)
      = ∑ l : Fin 512, a (ix2 p l) * b (ix2 l q) := by
  refine (Ideal.matmul_constant_zero_apply dot_S2048x512_S512x1024_S2048x1024_1_0_0_1_n_n none a b (ix2 p q)).trans ?_
  rw [← Equiv.sum_comp (ValueIdx.contrEquiv1 dot_S2048x512_S512x1024_S2048x1024_1_0_0_1_n_n 512 rfl rfl).symm]
  refine Finset.sum_congr rfl fun l _ => ?_
  have hl := ValueIdx.contrEquiv1_symm_val dot_S2048x512_S512x1024_S2048x1024_1_0_0_1_n_n 512 rfl rfl l
  have el : dot_S2048x512_S512x1024_S2048x1024_1_0_0_1_n_n.lhsIdx (ix2 p q)
      ((ValueIdx.contrEquiv1 dot_S2048x512_S512x1024_S2048x1024_1_0_0_1_n_n 512 rfl rfl).symm l) = ix2 p l :=
    funext fun ax => Fin.ext (by
      match ax with
      | ⟨0, _⟩ => exact lhs_row _ _
      | ⟨1, _⟩ => exact (lhs_col _ _).trans hl)
  have er : dot_S2048x512_S512x1024_S2048x1024_1_0_0_1_n_n.rhsIdx (ix2 p q)
      ((ValueIdx.contrEquiv1 dot_S2048x512_S512x1024_S2048x1024_1_0_0_1_n_n 512 rfl rfl).symm l) = ix2 l q :=
    funext fun ax => Fin.ext (by
      match ax with
      | ⟨0, _⟩ => exact (rhs_row _ _).trans hl
      | ⟨1, _⟩ => exact rhs_col _ _)
  rw [el, er]

/-! ## The three stored values -/

/-- The reset value is 0 everywhere. -/
theorem reset_apply (j : S2048x1024.Idx) : k0_pay1 (F := Ideal) j = 0 :=
  Ideal.ofBits_zero_f32

/-- One chunk's contribution at (p, q): the 512 products of row p of the x block with the signs of column q of the
    w block. -/
def chunkSum (xb : Vec Ideal S2048x512 .f32) (wb : Vec Ideal S512x1024 .f32) (p : Fin 2048) (q : Fin 1024) : EReal :=
  ∑ l : Fin 512, xb (ix2 p l) * Ideal.sign (wb (ix2 l q))

/-- The accumulating store at (p, q): what the block held, plus the chunk's contribution. -/
theorem accum_apply (xb : Vec Ideal S2048x512 .f32) (wb : Vec Ideal S512x1024 .f32) (acc : Vec Ideal S2048x1024 .f32)
    (p : Fin 2048) (q : Fin 1024) :
    k0_pay2 xb wb acc (ix2 p q) = acc (ix2 p q) + chunkSum xb wb p q := by
  unfold k0_pay2 chunkSum
  refine (addf_apply _ _ _).trans ?_
  refine congrArg₂ (· + ·) (congrFun (shapeCast_self acc _) _) ?_
  refine (product_apply _ _ p q).trans ?_
  refine Finset.sum_congr rfl fun l _ => ?_
  exact congrArg (xb (ix2 p l) * ·) (Ideal.jnp_sign_eq_sign_f32 (wb (ix2 l q)))

/-- The last store at (p, q): the bias of column q added, then the maximum with 0. -/
theorem finish_apply (v : Vec Ideal S2048x1024 .f32) (bb : Vec Ideal S1x1024 .f32) (p : Fin 2048) (q : Fin 1024) :
    k0_pay3 v bb (ix2 p q) = max (v (ix2 p q) + bb (ix2 (0 : Fin 1) q)) 0 := by
  unfold k0_pay3
  refine (maximumf_apply _ _ _).trans ?_
  refine congrArg₂ max ?_ Ideal.ofBits_zero_f32
  refine (addf_apply _ _ _).trans ?_
  refine congrArg₂ (· + ·) (congrFun (shapeCast_self v _) _) ?_
  rw [shapeCast_self, shapeCast_self]
  exact broadcastTo_1b_ab_apply bb _ p q

end Cert.KernelIdeal.Pay

end
-- ==== Proof.Blocks.lean ====
/-
  The kernel's input blocks as pieces of the argument arrays.

  The grid has 4 · 4 · 8 = 128 points; point t has coordinates (i, j, k) = (t / 32, t / 8 mod 4, t mod 8). At point t
  the body sees
    * the block of x with rows 2048 i .. 2048 i + 2047 and columns 512 k .. 512 k + 511,
    * the block of w with rows 512 k .. 512 k + 511 and columns 1024 j .. 1024 j + 1023,
    * the block of the bias, laid out as one row [1, 4096], with columns 1024 j .. 1024 j + 1023.
  A block's place (p, l) therefore holds the array's entry at (block index · block size + p, …); the block indices are
  the printed index maps, decided once over the 128 points. The one-row array is the host's reshape of b : [4096], whose
  entry (0, c) is b c.
-/
import proofs.«157911_j63900523430275_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The block of x at point t is block (t / 32, t mod 8). -/
theorem idx_x : ∀ t : Fin cfg0.N, win0_0.index t (0 : Fin 2) = t.val / 32 ∧ win0_0.index t (1 : Fin 2) = t.val % 8 :=
  (by decide +kernel : ∀ t : Fin grid0.N, _)

/-- The block of w at point t is block (t mod 8, t / 8 mod 4). -/
theorem idx_w : ∀ t : Fin cfg0.N, win0_1.index t (0 : Fin 2) = t.val % 8 ∧ win0_1.index t (1 : Fin 2) = t.val / 8 % 4 :=
  (by decide +kernel : ∀ t : Fin grid0.N, _)

/-- The block of the bias row at point t is block (0, t / 8 mod 4). -/
theorem idx_b : ∀ t : Fin cfg0.N, win0_2.index t (0 : Fin 2) = 0 ∧ win0_2.index t (1 : Fin 2) = t.val / 8 % 4 :=
  (by decide +kernel : ∀ t : Fin grid0.N, _)

/-- Place (p, l) of the x block at point t is x (2048 (t / 32) + p, 512 (t mod 8) + l). -/
theorem x_block (c : Dev nD) (t : Fin cfg0.N) (p : Fin 2048) (l : Fin 512) (r : Fin 8192) (k : Fin 4096)
    (hr : r.val = 2048 * (t.val / 32) + p.val) (hk : k.val = 512 * (t.val % 8) + l.val) :
    iblk m c 0 t (ix2 p l) = m ((c : Thread nD τ).loc main_arg0) (ix2 r k) := by
  obtain ⟨e0, e1⟩ := idx_x t
  unfold iblk
  rw [View.read_apply]
  show V m c main_arg0 _ = _
  rw [V_main_arg0]
  refine congrArg _ (funext fun ax => Fin.ext ?_)
  match ax with
  | ⟨0, _⟩ => show win0_0.index t (0 : Fin 2) * 2048 + 1 * p.val = r.val; rw [e0, hr]; omega
  | ⟨1, _⟩ => show win0_0.index t (1 : Fin 2) * 512 + 1 * l.val = k.val; rw [e1, hk]; omega

/-- Place (l, q) of the w block at point t is w (512 (t mod 8) + l, 1024 (t / 8 mod 4) + q). -/
theorem w_block (c : Dev nD) (t : Fin cfg0.N) (l : Fin 512) (q : Fin 1024) (k : Fin 4096) (cc : Fin 4096)
    (hk : k.val = 512 * (t.val % 8) + l.val) (hc : cc.val = 1024 * (t.val / 8 % 4) + q.val) :
    iblk m c 1 t (ix2 l q) = m ((c : Thread nD τ).loc main_arg1) (ix2 k cc) := by
  obtain ⟨e0, e1⟩ := idx_w t
  unfold iblk
  rw [View.read_apply]
  show V m c main_arg1 _ = _
  rw [V_main_arg1]
  refine congrArg _ (funext fun ax => Fin.ext ?_)
  match ax with
  | ⟨0, _⟩ => show win0_1.index t (0 : Fin 2) * 512 + 1 * l.val = k.val; rw [e0, hk]; omega
  | ⟨1, _⟩ => show win0_1.index t (1 : Fin 2) * 1024 + 1 * q.val = cc.val; rw [e1, hc]; omega

/-- When the kernel is entered, the one-row array holds the host's reshape of b. -/
theorem bias_row (c : Dev nD) :
    (V m c main_v0 : S1x4096.Idx → EReal) = shapeCast S1x4096 (m ((c : Thread nD τ).loc main_arg2)) Facts₀.shapeCasts_S4096_S1x4096 := by
  dsimp only [V, hostOps0]
  after_results
  rfl

/-- Place (0, q) of the bias block at point t is b (1024 (t / 8 mod 4) + q). -/
theorem b_block (c : Dev nD) (t : Fin cfg0.N) (q : Fin 1024) (cc : Fin 4096)
    (hc : cc.val = 1024 * (t.val / 8 % 4) + q.val) :
    iblk m c 2 t (ix2 (0 : Fin 1) q) = m ((c : Thread nD τ).loc main_arg2) (ix1 cc) := by
  obtain ⟨e0, e1⟩ := idx_b t
  unfold iblk
  rw [View.read_apply]
  show V m c main_v0 _ = _
  rw [bias_row]
  refine shapeCast_apply _ _ _ (ix1 cc) ?_
  rw [Shape.rowMajor_val_two, Shape.rowMajor_val_one]
  show cc.val = (win0_2.index t (0 : Fin 2) * 1 + 1 * 0) * 4096 + (win0_2.index t (1 : Fin 2) * 1024 + 1 * q.val)
  rw [e0, e1, hc]
  omega

end Cert.KernelIdeal.Blocks

end
-- ==== Proof.Fold.lean ====
/-
  What the kernel leaves in the result array is the dense layer of the arguments.

  The 128 grid points fall into 16 runs of 8 consecutive points; run r = 4 i + j works on the result block with rows
  2048 i .. and columns 1024 j .., and its s-th point (s = 0 .. 7) contracts chunk s of the 4096 contraction indices.
  The first point of a run stores 0 + (its chunk's sum), each later point adds its own chunk's sum to what the block
  holds, and the last point then adds the bias and takes the maximum with 0. So after the run the block holds, at (p, q),
      max ((0 + Σ_{s < 8} Σ_{l < 512} x (2048 i + p, 512 s + l) · sign (w (512 s + l, 1024 j + q))) + b (1024 j + q)) 0 ,
  and the double sum is the single sum over all 4096 contraction indices (chunk by chunk): the reference's value at
  row 2048 i + p and column 1024 j + q. Only commutativity and associativity of + on the extended reals are used.
-/
import proofs.«157911_j63900523430275_2_alg».proof.Proof.Gen.KernelIdeal.Value
import proofs.«157911_j63900523430275_2_alg».proof.Proof.DenseSpec
import proofs.«157911_j63900523430275_2_alg».proof.Proof.Payload
import proofs.«157911_j63900523430275_2_alg».proof.Proof.Blocks

noncomputable section

namespace Cert.KernelIdeal.Fold

open Cert.KernelIdeal Cert.KernelIdeal.Gen Idealize.ShloMosaic Idealize.ShloMosaic.TcCoe Idealize.SL.Sem
open Idealize.ShloMosaic.ValueIdx BipolarDense

variable (m : (ℓ : Loc nD τ sig) → Buf (Elt Ideal) ℓ)

/-- What grid point n adds at place (p, q) of the result block: the sum of its chunk's 512 products (0 past the grid,
    where it is never used). -/
def addend (c : Dev nD) (n : ℕ) (p : Fin 2048) (q : Fin 1024) : EReal :=
  if h : n < cfg0.N then Pay.chunkSum (iblk m c 0 ⟨n, h⟩) (iblk m c 1 ⟨n, h⟩) p q else 0

/-- The same as a function of the block's index. -/
def addendAt (c : Dev nD) (n : ℕ) (i : S2048x1024.Idx) : EReal :=
  addend m c n ⟨(i 0).val, (i 0).isLt⟩ ⟨(i 1).val, (i 1).isLt⟩

/-- At a point that is neither first nor last in its run, the step adds the point's chunk. -/
theorem step_mid (c : Dev nD) (n : ℕ) (hn : n < cfg0.N) (acc : Vec Ideal S2048x1024 .f32) (h0 : ¬n % 8 = 0) (h7 : ¬n % 8 = 7) :
    Value.step3 m c n hn acc = k0_pay2 (iblk m c 0 ⟨n, hn⟩) (iblk m c 1 ⟨n, hn⟩) acc := by
  unfold Value.step3
  rw [if_pos ⟨h0, h7⟩]

/-- At the last point of a run, the step adds the point's chunk, then the bias, and cuts off at 0. -/
theorem step_last (c : Dev nD) (n : ℕ) (hn : n < cfg0.N) (acc : Vec Ideal S2048x1024 .f32) (h7 : n % 8 = 7) :
    Value.step3 m c n hn acc
      = k0_pay3 (k0_pay2 (iblk m c 0 ⟨n, hn⟩) (iblk m c 1 ⟨n, hn⟩) acc) (iblk m c 2 ⟨n, hn⟩) := by
  unfold Value.step3
  rw [if_neg (by omega), if_pos (by omega)]

/-- After the first seven points of run r the block holds 0 plus the seven chunks' sums. -/
theorem partial_apply (c : Dev nD) (r : ℕ) (h : 8 * r + 6 < cfg0.N) (i : S2048x1024.Idx) :
    Pipeline.accAt (Value.reset3 m c) (Value.step3 m c) (8 * r) 6 h i
      = 0 + ∑ s ∈ Finset.range 7, addendAt m c (8 * r + s) i := by
  refine Pipeline.accAt_add_apply (ι := S2048x1024.Idx) (β := EReal) (Value.reset3 m c) (Value.step3 m c) (fun _ => 0)
    (addendAt m c) (8 * r) 6 ?_ ?_ 6 le_rfl h i
  · intro hb j
    obtain ⟨p, q, rfl⟩ : ∃ (p : Fin 2048) (q : Fin 1024), j = ix2 p q := ⟨j 0, j 1, eq_ix2 j⟩
    unfold Value.reset3
    refine (Pay.accum_apply _ _ _ p q).trans ?_
    rw [Pay.reset_apply]
    show _ = 0 + addend m c (8 * r) p q
    unfold addend
    rw [dif_pos hb]
  · intro n hn acc j h1 h2
    obtain ⟨p, q, rfl⟩ : ∃ (p : Fin 2048) (q : Fin 1024), j = ix2 p q := ⟨j 0, j 1, eq_ix2 j⟩
    rw [step_mid m c n hn acc (by omega) (by omega)]
    refine (Pay.accum_apply _ _ _ p q).trans ?_
    show _ = acc (ix2 p q) + addend m c n p q
    unfold addend
    rw [dif_pos hn]

/-- After all eight points of run r the block holds, at (p, q), the eight chunks' sums plus the bias block's entry q,
    cut off below at 0. -/
theorem fold_apply (c : Dev nD) (r : ℕ) (h : 8 * r + 7 < cfg0.N) (p : Fin 2048) (q : Fin 1024) :
    Pipeline.accAt (Value.reset3 m c) (Value.step3 m c) (8 * r) 7 h (ix2 p q)
      = max ((0 + ∑ s ∈ Finset.range 8, addend m c (8 * r + s) p q)
          + (iblk m c 2 ⟨8 * r + 7, h⟩ : Vec Ideal S1x1024 .f32) (ix2 (0 : Fin 1) q)) 0 := by
  rw [Pipeline.accAt_succ, step_last m c _ _ _ (by omega)]
  refine (Pay.finish_apply _ _ p q).trans ?_
  refine congrArg (fun z : EReal => max (z + _) 0) ?_
  refine (Pay.accum_apply _ _ _ p q).trans ?_
  rw [partial_apply m c r (Nat.lt_of_succ_lt h) (ix2 p q), Finset.sum_range_succ _ 7, add_assoc]
  refine congrArg (fun z : EReal => 0 + (_ + z)) ?_
  show _ = addend m c (8 * r + 7) p q
  unfold addend
  rw [dif_pos h]

/-- The result array after the kernel's run is the dense layer of the three argument arrays. -/
theorem result_eq (c : Dev nD) :
    Value.G3 m c = dense (m ((c : Thread nD τ).loc main_arg0)) (m ((c : Thread nD τ).loc main_arg1))
      (m ((c : Thread nD τ).loc main_arg2)) := by
  funext i
  have hi0 : (i 0).val < 8192 := (i 0).isLt
  have hi1 : (i 1).val < 4096 := (i 1).isLt
  have hN : cfg0.N = 128 := N_0
  have hr : Value.run3Of i = 4 * ((i 0).val / 2048) + (i 1).val / 1024 := by
    show 4 * ((i 0).val / 2048 - 0) + 1 * ((i 1).val / 1024 - 0) = _
    omega
  have hloc : Value.loc3Of i = ix2 (⟨(i 0).val % 2048, Nat.mod_lt _ (by decide)⟩ : Fin 2048)
      (⟨(i 1).val % 1024, Nat.mod_lt _ (by decide)⟩ : Fin 1024) :=
    funext fun a => match a with
      | ⟨0, _⟩ => rfl
      | ⟨1, _⟩ => rfl
  have hrun : 8 * Value.run3Of i + 7 < cfg0.N := by rw [hr, hN]; omega
  unfold Value.G3
  rw [dif_pos hrun, hloc, fold_apply m c (Value.run3Of i) hrun]
  unfold dense
  refine congrArg (fun z : EReal => max z 0) ?_
  refine congrArg₂ (fun y z : EReal => y + z) ?_ ?_
  · rw [zero_add, sum_chunks, Finset.sum_range]
    refine Finset.sum_congr rfl fun s _ => ?_
    have hs : s.val < 8 := s.isLt
    have hpt : 8 * Value.run3Of i + s.val < cfg0.N := by rw [hr, hN]; omega
    unfold addend
    rw [dif_pos hpt]
    unfold Pay.chunkSum
    refine Finset.sum_congr rfl fun l _ => ?_
    have hl : l.val < 512 := l.isLt
    refine congrArg₂ (· * ·) ?_ (congrArg Ideal.sign ?_)
    · exact Blocks.x_block m c ⟨_, hpt⟩ _ l _ _ (by show (i 0).val = 2048 * ((8 * Value.run3Of i + s.val) / 32) + (i 0).val % 2048; rw [hr]; omega)
        (by show 512 * s.val + l.val = 512 * ((8 * Value.run3Of i + s.val) % 8) + l.val; omega)
    · exact Blocks.w_block m c ⟨_, hpt⟩ l _ _ _ (by show 512 * s.val + l.val = 512 * ((8 * Value.run3Of i + s.val) % 8) + l.val; omega)
        (by show (i 1).val = 1024 * ((8 * Value.run3Of i + s.val) / 8 % 4) + (i 1).val % 1024; rw [hr]; omega)
  · exact Blocks.b_block m c ⟨_, hrun⟩ _ _ (by show (i 1).val = 1024 * ((8 * Value.run3Of i + 7) / 8 % 4) + (i 1).val % 1024; rw [hr]; omega)

end Cert.KernelIdeal.Fold

end
-- ==== Proof.RefDense.lean ====
/-
  The reference computes the dense layer.

  Its operations, read at row r and column c of the result: the sign of w entry by entry; one contraction of all 4096
  indices, Σ_k x (r, k) · sign (w (k, c)); the bias b : [4096] broadcast first to one row [1, 4096] and then over the
  8192 rows, so that entry (r, c) of the broadcast is b c; the sum of the two; and the maximum with the constant 0.
  That is `dense x w b (r, c)` term by term.
-/
import proofs.«157911_j63900523430275_2_alg».proof.Proof.Gen.ReferenceIdeal.Read
import proofs.«157911_j63900523430275_2_alg».proof.Proof.DenseSpec

noncomputable section

namespace Cert.ReferenceIdeal.RefValue

open Cert.ReferenceIdeal Cert.ReferenceIdeal.Gen Cert.ReferenceIdeal.Read Idealize.ShloMosaic
open Idealize.ShloMosaic.ValueIdx BipolarDense

/-- The contraction reads x at (row of i, k) … -/
theorem lidx_eq (i : S8192x4096.Idx) (k : Fin 4096) :
    lidx_main_v1 i k = ix2 (⟨(i 0).val, (i 0).isLt⟩ : Fin 8192) k :=
  funext fun a => Fin.ext (by match a with | ⟨0, _⟩ => rfl | ⟨1, _⟩ => rfl)

/-- … and the signs of w at (k, column of i). -/
theorem ridx_eq (i : S8192x4096.Idx) (k : Fin 4096) :
    ridx_main_v1 i k = ix2 k (⟨(i 1).val, (i 1).isLt⟩ : Fin 4096) :=
  funext fun a => Fin.ext (by match a with | ⟨0, _⟩ => rfl | ⟨1, _⟩ => rfl)

/-- The twice-broadcast bias at i is b at i's column. -/
theorem bidx_eq (i : S8192x4096.Idx) :
    idx_main_v2 (idx_main_v3 i) = ix1 (⟨(i 1).val, (i 1).isLt⟩ : Fin 4096) :=
  funext fun a => Fin.ext (by match a with | ⟨0, _⟩ => rfl)

/-- The reference's result is the dense layer of its arguments. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v5 (F := Ideal) x0 x1 x2 = dense x0 x1 x2 := by
  funext i
  rw [val_main_v5_apply, val_main_v4_apply, val_main_v1_apply, val_main_v3_apply, val_main_v2_apply,
    val_main_call0_v0_apply, val_main_call0_cst_apply]
  simp only [val_main_v0_apply, lidx_eq, ridx_eq, bidx_eq, Ideal.hostUnary_sign_def, Ideal.addf_def, Ideal.maximumf_def,
    Ideal.ofBits_def, Ideal.ofBits_zero_f32]
  rfl

end Cert.ReferenceIdeal.RefValue

end
-- ==== Proof.lean ====
/-
  The bipolar dense layer  relu (x · sign w + b) , x : [8192, 4096], w : [4096, 4096], b : [4096]: a kernel that
  contracts the 4096 inner indices in 8 chunks of 512, accumulating in its resident [2048, 1024] result block over the
  last grid axis and applying bias and relu at the last chunk, against the reference's single contraction.

  Over the extended reals both programs end with the same array, `BipolarDense.dense x w b`:
      dense x w b (r, c) = max (Σ_{k < 4096} x (r, k) · sign (w (k, c)) + b c) 0 .
  * The kernel's side (Proof/Fold.lean, over Proof/Payload.lean and Proof/Blocks.lean): each run of 8 grid points leaves
    in its block the fold  max ((0 + Σ_{s < 8} chunk s) + bias) 0 ; the chunks' sums regroup into the one sum over all
    4096 indices because + on the extended reals is commutative and associative, at the infinities too — so the
    precondition (finite inputs) is never opened.
  * The kernel's sign is 1 carrying w's sign bit where |w| > 0 and w itself elsewhere; read on the extended reals that is
    the order-theoretic sign (−1 below 0, 0 at 0, 1 above 0, the infinities included), which is what the reference's sign
    is. The rewriting of the sign-bit read into a comparison is the one sanctioned idealization (`preserves`).
  * The narrowing of the matmul operands to bf16 is the identity on the extended reals.
  * The reference's side (Proof/RefDense.lean): its operations composed, read at an index, are `dense` term by term.
-/
import proofs.«157911_j63900523430275_2_alg».proof.Defs
import proofs.«157911_j63900523430275_2_alg».proof.Proof.Gen.Kernel
import proofs.«157911_j63900523430275_2_alg».proof.Proof.Gen.Kernel.Skeleton
import proofs.«157911_j63900523430275_2_alg».proof.Proof.Gen.Kernel.Launch
import proofs.«157911_j63900523430275_2_alg».proof.Proof.Gen.Kernel.Points
import proofs.«157911_j63900523430275_2_alg».proof.Proof.Gen.Kernel.Frame
import proofs.«157911_j63900523430275_2_alg».proof.Proof.Gen.KernelIdeal
import proofs.«157911_j63900523430275_2_alg».proof.Proof.Gen.KernelIdeal.Skeleton
import proofs.«157911_j63900523430275_2_alg».proof.Proof.Gen.KernelIdeal.Launch
import proofs.«157911_j63900523430275_2_alg».proof.Proof.Gen.KernelIdeal.Points
import proofs.«157911_j63900523430275_2_alg».proof.Proof.Gen.KernelIdeal.Frame
import proofs.«157911_j63900523430275_2_alg».proof.Proof.Gen.KernelIdeal.Value
import proofs.«157911_j63900523430275_2_alg».proof.Proof.Gen.ReferenceIdeal
import proofs.«157911_j63900523430275_2_alg».proof.Proof.Gen.ReferenceIdeal.Run
import proofs.«157911_j63900523430275_2_alg».proof.Proof.Gen.ReferenceIdeal.Read
import proofs.«157911_j63900523430275_2_alg».proof.Proof.Gen.Pre_finite_inputs
import proofs.«157911_j63900523430275_2_alg».proof.Proof.Fold
import proofs.«157911_j63900523430275_2_alg».proof.Proof.RefDense
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one idealization: 1 carrying the sign bit of w is −1 where w < 0 and 1 elsewhere. -/
theorem preserves : Cert.preserves_Kernel_KernelIdeal :=
  IdealRules.sign_bit.statement Cert.KernelIdeal.S512x1024 .f32

/-- Over the extended reals, from arguments that agree, both programs end with the dense layer of the arguments. -/
theorem algebraic : Cert.algebraic_KernelIdeal_ReferenceIdeal := by
  intro m ρ m' ρ' _ hagree
  refine ⟨fun c => Cert.KernelIdeal.Value.G3 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq, (hagree c).1, (hagree c).2.1,
    (hagree c).2.2]
  exact (Cert.KernelIdeal.Fold.result_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
